-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S1x1 : Shape := ⟨2, ![1, 1]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩
abbrev S8192 : Shape := ⟨1, ![8192]⟩

abbrev nBuf : Space → Nat
  | .hbm => 11
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S8192x1, .f32⟩
  | .hbm, ⟨10, _⟩ => ⟨S8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1, .f32⟩
  | .local _ .vmem, ⟨4, _⟩ => ⟨S512x1, .f32⟩
  | .local _ .vmem, ⟨5, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x2048_S2048_d0 : S2048x2048.ReducesTo [0] S2048
  h_S_ : 0 < S_.numel
  shapeCasts_S2048_S1x2048 : S2048.ShapeCasts S1x2048
  reducesTo_S2048_S_d0 : S2048.ReducesTo [0] S_
  shapeCasts_S_S1x1 : S_.ShapeCasts S1x1
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S8192x1_S8192 : S8192x1.ShapeCasts S8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S8192 : Shape := ⟨1, ![8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  reducesTo_S8192x2048_S8192_d1 : S8192x2048.ReducesTo [1] S8192
  h_S_ : 0 < S_.numel
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.RowSumLaw.lean ====
/-
  The mathematics of this certificate, free of any program.

  Inputs: a matrix `x` of 8192 rows and 2048 columns, a square weight `W` (2048 outputs by 2048 inputs), a bias `b`
  of 2048 entries, and one scale `s` (the same float literal on both sides, never evaluated beyond its finiteness).

  The reference computes, for each row `r`, the sum over the outputs `o` of the scaled affine image
      ∑ o, ((∑ k, x r k * W o k) + b o) * s.
  The kernel first sums the weight down its columns and the bias over its entries, and then takes one scaled inner
  product per row:
      ((∑ k, x r k * (∑ o, W o k)) + ∑ o, b o) * s.
  On the real numbers the two agree: the scale leaves the sum over `o` (distributivity), the sum of the affine images
  splits (additivity), and the double sum is exchanged with `x r k` taken out of the inner one.  On the EXTENDED reals
  distributivity fails at the infinities, so the law is stated for finite entries, and is proved by carrying every
  entry back to the real number it is.
-/
import Idealize.ShloMosaic.PureOps.Ideal
import Idealize.ShloMosaic.PureOps.Ideal.Laws
import Idealize.ShloMosaic.Lib.ValueIdx

noncomputable section

namespace Cert.RowSum

open Idealize.ShloMosaic Idealize.ShloMosaic.ValueIdx
open scoped BigOperators

/-! ## The law on the reals, and its image in the extended reals -/

/-- The inclusion of the reals in the extended reals carries a finite sum to the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals: summing the scaled affine images over the outputs is the scaled inner product with the column sums,
    plus the summed bias, scaled. -/
theorem real_law {O K : Type} [Fintype O] [Fintype K] (x : K → ℝ) (W : O → K → ℝ) (b : O → ℝ) (s : ℝ) :
    ∑ o, ((∑ k, x k * W o k) + b o) * s = ((∑ k, x k * ∑ o, W o k) + ∑ o, b o) * s := by
  rw [← Finset.sum_mul, Finset.sum_add_distrib]
  congr 2
  rw [Finset.sum_comm]
  exact Finset.sum_congr rfl fun k _ => (Finset.mul_sum _ _ _).symm

/-- The same law between extended reals that are images of reals. -/
theorem ereal_law {O K : Type} [Fintype O] [Fintype K] (x : K → ℝ) (W : O → K → ℝ) (b : O → ℝ) (s : ℝ) :
    ∑ o, ((∑ k, (x k : EReal) * (W o k : EReal)) + (b o : EReal)) * (s : EReal)
      = ((∑ k, (x k : EReal) * ∑ o, (W o k : EReal)) + ∑ o, (b o : EReal)) * (s : EReal) := by
  simp only [← EReal.coe_mul, ← coe_sum, ← EReal.coe_add]
  exact congrArg _ (real_law x W b s)

/-! ## The two forms over the literal shapes -/

/-- The shared scale: the float literal both programs multiply by. -/
def scale : EReal := Ideal.ofBits .f32 0x3C23D70A#32

/-- The scale is a finite number (a normal binary32 pattern). -/
theorem scale_finite : ∃ s : ℝ, scale = (s : EReal) := by
  unfold scale Ideal.ofBits Ideal.ieee
  simp only []
  rw [if_neg (by decide), if_neg (by decide)]
  exact ⟨_, rfl⟩

/-- Column `k` of the weight, summed over the outputs. -/
def colSum (W : (⟨2, ![2048, 2048]⟩ : Shape).Idx → EReal) (k : Fin 2048) : EReal := ∑ o : Fin 2048, W (ix2 o k)

/-- The bias summed over the outputs. -/
def biasSum (b : (⟨1, ![2048]⟩ : Shape).Idx → EReal) : EReal := ∑ o : Fin 2048, b (ix1 o)

/-- The kernel's form of row `r` of the result: one inner product with the column sums, the summed bias added, scaled. -/
def viaColumnSums (x : (⟨2, ![8192, 2048]⟩ : Shape).Idx → EReal) (W : (⟨2, ![2048, 2048]⟩ : Shape).Idx → EReal)
    (b : (⟨1, ![2048]⟩ : Shape).Idx → EReal) (r : Fin 8192) : EReal :=
  ((∑ k : Fin 2048, x (ix2 r k) * colSum W k) + biasSum b) * scale

/-- The reference's form of row `r`: the scaled affine image of the row, summed over the outputs. -/
def viaAffineImage (x : (⟨2, ![8192, 2048]⟩ : Shape).Idx → EReal) (W : (⟨2, ![2048, 2048]⟩ : Shape).Idx → EReal)
    (b : (⟨1, ![2048]⟩ : Shape).Idx → EReal) (r : Fin 8192) : EReal :=
  ∑ o : Fin 2048, ((∑ k : Fin 2048, x (ix2 r k) * W (ix2 o k)) + b (ix1 o)) * scale

/-- For finite inputs the two forms are one number, row by row. -/
theorem viaAffineImage_eq_viaColumnSums (x : (⟨2, ![8192, 2048]⟩ : Shape).Idx → EReal)
    (W : (⟨2, ![2048, 2048]⟩ : Shape).Idx → EReal) (b : (⟨1, ![2048]⟩ : Shape).Idx → EReal)
    (hx : ∀ i, ∃ v : ℝ, x i = (v : EReal)) (hW : ∀ i, ∃ v : ℝ, W i = (v : EReal)) (hb : ∀ i, ∃ v : ℝ, b i = (v : EReal))
    (r : Fin 8192) : viaAffineImage x W b r = viaColumnSums x W b r := by
  choose x' hx' using hx
  choose W' hW' using hW
  choose b' hb' using hb
  obtain ⟨s, hs⟩ := scale_finite
  unfold viaAffineImage viaColumnSums colSum biasSum
  simp only [hx', hW', hb', hs]
  exact ereal_law (fun k => x' (ix2 r k)) (fun o k => W' (ix2 o k)) (fun o => b' (ix1 o)) s

end Cert.RowSum

end
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.BlockRows.lean ====
/-
  What the kernel body stores, row by row.

  At one grid point the body holds a block of 512 rows of `x` (each of 2048 columns), the whole row of column sums
  (1 by 2048) and the summed bias (1 by 1).  It multiplies every row of the block by the column sums, entry by entry,
  sums each row over its 2048 lanes, keeps the sums as a column, adds the summed bias to every entry of the column and
  multiplies by the scale.  So row `p` of the stored column is
      ((∑ k, block p k * sums 0 k) + bias 0 0) * scale.
-/
import proofs.«123103_j82978768158972_2_alg».proof.Proof.Gen.KernelIdeal.Skeleton
import proofs.«123103_j82978768158972_2_alg».proof.Proof.RowSumLaw
import proofs.«123103_j82978768158972_2_alg».proof.Proof.LibColumnCasts
import Idealize.ShloMosaic.Lib.ValueLayout

noncomputable section

namespace Cert.KernelIdeal.BlockRows

open Cert.KernelIdeal Cert.KernelIdeal.Gen
open Idealize.ShloMosaic Idealize.ShloMosaic.ValueIdx
open scoped BigOperators

/-- Row `p` of the column the body stores, from the three blocks it loads. -/
theorem stored_row (blk : FVec Ideal S512x2048 .f32) (sums : FVec Ideal S1x2048 .f32) (bias : FVec Ideal S1x1 .f32)
    (p : Fin 512) (u : Fin 1) :
    k0_pay1 (F := Ideal) blk sums bias (ix2 p u)
      = ((∑ k : Fin 2048, blk (ix2 p k) * sums (ix2 (0 : Fin 1) k)) + bias (ix2 (0 : Fin 1) (0 : Fin 1))) * Cert.RowSum.scale := by
  obtain rfl : u = 0 := Subsingleton.elim u 0
  unfold k0_pay1 Cert.RowSum.scale
  dsimp only
  rw [mulf_apply, addf_apply, broadcast_apply, Cert.ColumnCasts.shapeCast_a_a1_apply, Cert.ColumnCasts.rowSum_apply,
    broadcastTo_1b_ab_apply, shapeCast_self, shapeCast_self]
  show (_ + bias (ix2 (0 : Fin 1) (0 : Fin 1))) * Ideal.ofBits .f32 0x3C23D70A#32 = _
  refine congrArg (fun z => (z + bias (ix2 (0 : Fin 1) (0 : Fin 1))) * Ideal.ofBits .f32 0x3C23D70A#32) ?_
  refine Finset.sum_congr rfl fun k _ => ?_
  rw [mulf_apply, broadcastTo_1b_ab_apply]

end Cert.KernelIdeal.BlockRows

end
-- ==== Proof.HostSums.lean ====
/-
  What the region finds in the two arrays the host computes before it.

  Before the region the host sums the weight over its first axis (the outputs), from the zero word, into a vector of
  2048 column sums and recasts that vector as a 1 by 2048 row; and it sums the bias over its one axis, from the zero
  word, into a scalar recast as a 1 by 1 array.  The zero word is the number zero, so at the ideal values the row
  holds, at column `k`, the sum over the outputs `o` of `W o k`, and the 1 by 1 array holds the sum of the bias.
  The argument arrays themselves are found as launched.
-/
import proofs.«123103_j82978768158972_2_alg».proof.Proof.Gen.KernelIdeal.Frame
import proofs.«123103_j82978768158972_2_alg».proof.Proof.RowSumLaw
import proofs.«123103_j82978768158972_2_alg».proof.Proof.LibColumnCasts
import Idealize.ShloMosaic.Lib.ValueLayout
import Idealize.ShloMosaic.Lib.StableHlo.Run

noncomputable section

namespace Cert.KernelIdeal.HostSums

open Cert.KernelIdeal Cert.KernelIdeal.Gen
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ)

/-- The row of column sums as the host's operations leave it: the weight summed over its first axis, recast. -/
theorem found_colSums_term (c : Dev nD) :
    (V m c main_v1 : S1x2048.Idx → EReal)
      = shapeCast S1x2048 (Host.reduceAdd (F := Ideal) (m ((c : Thread nD τ).loc main_arg1))
          (constant (F := Ideal) S_ .f32 0x00000000#32) reducesTo_S2048x2048_S2048_d0 h_S_) shapeCasts_S2048_S1x2048 := by
  show StableHlo.after hostOps0 (fun b => m (c, b)) (Proc.devRef .tc main_v1) = _
  after_results
  rfl

/-- The summed bias as the host's operations leave it: the bias summed over its axis, recast. -/
theorem found_biasSum_term (c : Dev nD) :
    (V m c main_v3 : S1x1.Idx → EReal)
      = shapeCast S1x1 (Host.reduceAdd (F := Ideal) (m ((c : Thread nD τ).loc main_arg2))
          (constant (F := Ideal) S_ .f32 0x00000000#32) reducesTo_S2048_S_d0 h_S_) shapeCasts_S_S1x1 := by
  show StableHlo.after hostOps0 (fun b => m (c, b)) (Proc.devRef .tc main_v3) = _
  after_results
  rfl

/-- The host's sum of a 2048 by 2048 matrix over its first axis, from zero, at column `k`: the sum down the column. -/
theorem hostColSum_apply (W : FVec Ideal S2048x2048 .f32) (k : Fin 2048) :
    Host.reduceAdd (F := Ideal) W (constant (F := Ideal) S_ .f32 0x00000000#32) reducesTo_S2048x2048_S2048_d0 h_S_ (ix1 k)
      = ∑ o : Fin 2048, W (ix2 o k) := by
  simp only [Host.reduceAdd, Ideal.hostReduceAdd_def]
  rw [Ideal.hostReduceAdd_single reducesTo_S2048x2048_S2048_d0 (by decide)]
  rw [constant_apply, Ideal.ofBits_zero_f32, zero_add]
  exact Finset.sum_congr rfl fun o _ => congrArg W (funext fun a => Fin.ext (by
    match a with
    | ⟨0, _⟩ => rfl
    | ⟨1, _⟩ => rfl))

/-- The host's sum of a vector of 2048 entries over its axis, from zero, at the scalar's one index: the total. -/
theorem hostTotal_apply (b : FVec Ideal S2048 .f32) (j : S_.Idx) :
    Host.reduceAdd (F := Ideal) b (constant (F := Ideal) S_ .f32 0x00000000#32) reducesTo_S2048_S_d0 h_S_ j
      = ∑ o : Fin 2048, b (ix1 o) := by
  simp only [Host.reduceAdd, Ideal.hostReduceAdd_def]
  rw [Ideal.hostReduceAdd_total reducesTo_S2048_S_d0 (fun d => d.elim0)]
  rw [constant_apply, Ideal.ofBits_zero_f32, zero_add]
  exact Cert.ColumnCasts.sum_vectorIdx b

/-- Column `k` of the row the region finds is the weight's column `k` summed over the outputs. -/
theorem found_colSums (c : Dev nD) (u : Fin 1) (k : Fin 2048) :
    (V m c main_v1 : S1x2048.Idx → EReal) (ix2 u k) = Cert.RowSum.colSum (m ((c : Thread nD τ).loc main_arg1)) k := by
  rw [found_colSums_term, shapeCast_a_1a_apply, hostColSum_apply]
  rfl

/-- The one entry of the 1 by 1 array the region finds is the bias summed over the outputs. -/
theorem found_biasSum (c : Dev nD) (j : S1x1.Idx) :
    (V m c main_v3 : S1x1.Idx → EReal) j = Cert.RowSum.biasSum (m ((c : Thread nD τ).loc main_arg2)) := by
  rw [found_biasSum_term, Cert.ColumnCasts.shapeCast_scalar_11_apply, hostTotal_apply]
  rfl

end Cert.KernelIdeal.HostSums

end
-- ==== Proof.KernelResult.lean ====
/-
  The kernel's result, as one function of the argument arrays.

  The grid has 16 points; point `t` reads rows 512 t to 512 t + 511 of `x` (all 2048 columns), the whole row of column
  sums and the whole 1 by 1 summed bias, and writes rows 512 t to 512 t + 511 of an 8192 by 1 column.  Row `p` of what
  it writes is the stored row of the body (the inner product of block row `p` with the column sums, plus the summed
  bias, scaled), and block row `p` at point `t` is row 512 t + p of `x`: so every point writes a block of ONE column,
  whose row `r` is the column-sum form of the specification at row `r`.  The 16 blocks tile the 8192 rows (row `r` is in
  the block of point `r / 512`), so the column ends holding that function everywhere.  After the region the host
  recasts the column as a vector of 8192 entries, which reads entry `r` at row `r` of the column.
-/
import proofs.«123103_j82978768158972_2_alg».proof.Proof.Gen.KernelIdeal.Frame
import proofs.«123103_j82978768158972_2_alg».proof.Proof.BlockRows
import proofs.«123103_j82978768158972_2_alg».proof.Proof.HostSums
import Idealize.ShloMosaic.Lib.Pipeline.Value

noncomputable section

namespace Cert.KernelIdeal.Result

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)
open scoped BigOperators

variable (m : (ℓ : Loc nD τ sig) → Buf (Elt Ideal) ℓ) (ρ : Dev nD → PrngReg)

/-- The column the region leaves: row `r` holds the column-sum form of the result at row `r`. -/
def column (c : Dev nD) : S8192x1.Idx → EReal := fun i =>
  Cert.RowSum.viaColumnSums (m ((c : Thread nD τ).loc main_arg0)) (m ((c : Thread nD τ).loc main_arg1))
    (m ((c : Thread nD τ).loc main_arg2)) (i 0)

/-- The vector the program returns: entry `r` holds the column-sum form of the result at row `r`. -/
def vector (c : Dev nD) : S8192.Idx → EReal := fun i =>
  Cert.RowSum.viaColumnSums (m ((c : Thread nD τ).loc main_arg0)) (m ((c : Thread nD τ).loc main_arg1))
    (m ((c : Thread nD τ).loc main_arg2)) (i 0)

theorem offsets_zero : (![0, 0] : Fin 2 → Nat) = fun _ => 0 := funext fun a => by fin_cases a <;> rfl

/-- The stored row of the body at any index of the 512 by 1 column. -/
theorem stored_at (blk : FVec Ideal S512x2048 .f32) (sums : FVec Ideal S1x2048 .f32) (bias : FVec Ideal S1x1 .f32)
    (j : S512x1.Idx) :
    k0_pay1 (F := Ideal) blk sums bias j
      = ((∑ k : Fin 2048, blk (ix2 (j 0) k) * sums (ix2 (0 : Fin 1) k)) + bias (ix2 (0 : Fin 1) (0 : Fin 1))) * Cert.RowSum.scale := by
  obtain ⟨p, u, rfl⟩ : ∃ (p : Fin 512) (u : Fin 1), j = ix2 p u := ⟨j 0, j 1, eq_ix2 j⟩
  exact Cert.KernelIdeal.BlockRows.stored_row blk sums bias p u

/-- The index maps of the four windows, decided over the 16 points: the block of `x` moves with the output's block down the rows and
    stays at column block 0; the column sums and the summed bias stay at block (0, 0); the output stays at column block 0. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every one of the 16 row blocks of the output is some point's. -/
theorem index_onto : ∀ q : Fin 16, ∃ t : Fin cfg0.N, win0_3.index t = ![q.val, 0] :=
  (by decide +kernel : ∀ q : Fin 16, ∃ t : Fin grid0.N, win0_3.index t = ![q.val, 0])

/-- What point `t` writes back is block `t` of the one column. -/
theorem flushed_eq (c : Dev nD) (t : Fin cfg0.N) :
    (dats m 0 c).flushed 3 t = ((cfg0.win 3).blk t).view.read (Elt Ideal) (column m c) := by
  show (cfg0.win 3).cut (grid0.coords t) ((dats m 0 c).after 3 t) = _
  rw [after0_3]
  unfold out0_3
  rw [View.canon_unit_zero offsets_zero]
  simp only [View.ld_unit_zero (S := S512x2048) offsets_zero, View.ld_unit_zero (S := S1x2048) offsets_zero,
    View.ld_unit_zero (S := S1x1) offsets_zero]
  obtain ⟨e0, e1, e2, e3, e4, e5, e6, e7⟩ := index_facts t
  funext j
  show k0_pay1 (F := Ideal) (iblk m c 0 t) (iblk m c 1 t) (iblk m c 2 t) j = column m c (((cfg0.win 3).blk t).view.emb j)
  refine (stored_at (iblk m c 0 t) (iblk m c 1 t) (iblk m c 2 t) j).trans ?_
  unfold column Cert.RowSum.viaColumnSums
  have hx : ∀ k : Fin 2048, iblk m c 0 t (ix2 (j 0) k)
      = m ((c : Thread nD τ).loc main_arg0) (ix2 ((((cfg0.win 3).blk t).view.emb j) 0) k) := fun k => by
    show V m c main_arg0 (((cfg0.win 0).blk t).view.emb (ix2 (j 0) k)) = _
    rw [V_main_arg0]
    refine congrArg (m ((c : Thread nD τ).loc main_arg0)) (funext fun a => Fin.ext ?_)
    match a with
    | ⟨0, _⟩ =>
      show win0_0.index t (0 : Fin 2) * 512 + 1 * (j 0).val = win0_3.index t (0 : Fin 2) * 512 + 1 * (j 0).val
      omega
    | ⟨1, _⟩ =>
      show win0_0.index t (1 : Fin 2) * 2048 + 1 * k.val = k.val
      omega
  have hs : ∀ k : Fin 2048, iblk m c 1 t (ix2 (0 : Fin 1) k)
      = Cert.RowSum.colSum (m ((c : Thread nD τ).loc main_arg1)) k := fun k => by
    show V m c main_v1 (((cfg0.win 1).blk t).view.emb (ix2 (0 : Fin 1) k)) = _
    have he : ((cfg0.win 1).blk t).view.emb (ix2 (0 : Fin 1) k) = ix2 (0 : Fin 1) k := funext fun a => Fin.ext (by
      match a with
      | ⟨0, _⟩ =>
        show win0_1.index t (0 : Fin 2) * 1 + 1 * 0 = 0
        omega
      | ⟨1, _⟩ =>
        show win0_1.index t (1 : Fin 2) * 2048 + 1 * k.val = k.val
        omega)
    rw [he]
    exact Cert.KernelIdeal.HostSums.found_colSums m c 0 k
  have hb : iblk m c 2 t (ix2 (0 : Fin 1) (0 : Fin 1)) = Cert.RowSum.biasSum (m ((c : Thread nD τ).loc main_arg2)) :=
    Cert.KernelIdeal.HostSums.found_biasSum m c _
  rw [hb]
  refine congrArg (fun z => (z + Cert.RowSum.biasSum (m ((c : Thread nD τ).loc main_arg2))) * Cert.RowSum.scale) ?_
  exact Finset.sum_congr rfl fun k _ => by rw [hx k, hs k]

/-- An index of the column is in point `t`'s block iff each coordinate is in the block's range on its axis. -/
theorem mem_blk (t : Fin cfg0.N) (i : S8192x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v4).slice (win0_3.rect t)).set ↔ _
  rw [View.set_slice_whole, Rect.mem_set_unit]
  exact Iff.rfl

/-- Every row of the column is in the block of the point that holds its row block. -/
theorem covered (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1 ≤ (i 1).val ∧ (i 1).val < win0_3.index t (1 : Fin 2) * 1 + 1
    omega

/-- The column after the run is the one function, everywhere. -/
theorem column_final (c : Dev nD) : (dats m 0 c).arrAt 3 cfg0.N = column m c :=
  (dats m 0 c).arrAt_eq_of_cover 3 (column m c) (fun t _ => flushed_eq m c t) covered

/-- The vector the host's recast leaves after the region: entry `r` is row `r` of the column. -/
theorem vector_final (c : Dev nD) :
    Pipeline.afterTail₀ cfgs (dats m) 0 (V0 m) [hostOps1] c main_v5 = vector m c := by
  unfold Pipeline.afterTail₀
  show StableHlo.after hostOps1 _ (Proc.devRef .tc main_v5) = _
  after_results
  have hw : Pipeline.withArrays (cfgs 0).spec c (V0 m c) (fun w => (dats m 0 c).arrAt w (cfgs 0).N)
      (Proc.devRef .tc main_v4) = column m c :=
    (Pipeline.withArrays_arr spec0 launch0.win.arr_inj c _ _ 3).trans (column_final m c)
  funext i
  obtain ⟨r, rfl⟩ : ∃ r : Fin 8192, i = ix1 r := ⟨i 0, eq_ix1 i⟩
  show shapeCast S8192 (Pipeline.withArrays (cfgs 0).spec c (V0 m c) (fun w => (dats m 0 c).arrAt w (cfgs 0).N)
      (Proc.devRef .tc main_v4)) shapeCasts_S8192x1_S8192 (ix1 r) = _
  rw [hw, Cert.ColumnCasts.shapeCast_a1_a_apply]
  rfl

/-- The kernel's run at the ideal values: every weakly fair execution terminates with the result vector at the
    column-sum form of the specification and the three argument arrays unchanged. -/
theorem run : θ_run defs (onTc (τ := τ) (main (F := Ideal))) ⟨m, fun _ => 0, ρ⟩ fun r => ∀ c : Dev nD,
      r.2.mem ((c.tc : Thread nD τ).loc main_v5) = vector m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (vector_final m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.ReferenceRows.lean ====
/-
  The reference, row by row.

  The reference's last stage is a sum over the second axis of an 8192 by 2048 array whose entry (r, o) is
  ((∑ k, x r k * W o k) + b o) * s: the contraction of row `r` of `x` with row `o` of the weight (the weight is stored
  output-major, so both operands are contracted along their second axis), the bias entry `o` broadcast down the rows,
  and the scale broadcast everywhere.  The sum starts from the zero word, which is the number zero.  Read at a row index
  this is the "affine image" form of the specification.
-/
import proofs.«123103_j82978768158972_2_alg».proof.Proof.Gen.ReferenceIdeal.Read
import proofs.«123103_j82978768158972_2_alg».proof.Proof.RowSumLaw

noncomputable section

namespace Cert.ReferenceIdeal.Rows

open Cert.ReferenceIdeal Cert.ReferenceIdeal.Gen Cert.ReferenceIdeal.Read
open Idealize.ShloMosaic Idealize.ShloMosaic.ValueIdx
open scoped BigOperators

/-- The reference's result at row `i` is the scaled affine image of that row of `x`, summed over the outputs. -/
theorem result_rows (x : (⟨S8192x2048, .f32⟩ : BufTy).Contents (Elt Ideal)) (W : (⟨S2048x2048, .f32⟩ : BufTy).Contents (Elt Ideal))
    (b : (⟨S2048, .f32⟩ : BufTy).Contents (Elt Ideal)) :
    val_main_v6 (F := Ideal) x W b = fun i => Cert.RowSum.viaAffineImage x W b (i 0) := by
  funext i
  rw [val_main_v6_apply, val_main_cst_0_apply, Ideal.ofBits_def, Ideal.ofBits_zero_f32, zero_add]
  unfold Cert.RowSum.viaAffineImage Cert.RowSum.scale
  refine Finset.sum_congr rfl fun o _ => ?_
  rw [val_main_v5_apply, val_main_v3_apply, val_main_v0_apply, val_main_v2_apply, val_main_v1_apply, val_main_v4_apply,
    val_main_cst_apply]
  have el : ∀ k : Fin 2048, lidx_main_v0 (idx_main_v6 i o) k = ix2 (i 0) k := fun k =>
    funext fun a => Fin.ext (by match a with | ⟨0, _⟩ => rfl | ⟨1, _⟩ => rfl)
  have er : ∀ k : Fin 2048, ridx_main_v0 (idx_main_v6 i o) k = ix2 o k := fun k =>
    funext fun a => Fin.ext (by match a with | ⟨0, _⟩ => rfl | ⟨1, _⟩ => rfl)
  have eb : idx_main_v1 (idx_main_v2 (idx_main_v6 i o)) = ix1 o :=
    funext fun a => Fin.ext (by match a with | ⟨0, _⟩ => rfl)
  simp only [el, er, eb, Ideal.ofBits_def, Ideal.mulf_def, Ideal.addf_def]
  rfl

end Cert.ReferenceIdeal.Rows

end
-- ==== Proof.FiniteInputs.lean ====
/-
  The precondition, decoded: every entry of every input is a real number.

  The precondition is the conjunction of three tests, one per input: that every entry's absolute value is below the
  pattern of plus infinity.  A conjunction of one-bit words is 1 only if each is; a test over a whole array that came
  out 1 had a 1 at every entry; and an extended real whose absolute value (the larger of the number and its negative)
  is below plus infinity is neither infinity, so it is a real number.
-/
import proofs.«123103_j82978768158972_2_alg».proof.Pre_finite_inputs
import Idealize.ShloMosaic.Lib.Affine
import Idealize.ShloMosaic.Lib.ReduceAll
import Idealize.ShloMosaic.Lib.ValueIdx
import Idealize.ShloMosaic.PureOps.Ideal.Laws

noncomputable section

namespace Cert.Pre_finite_inputs.Decode

open Cert.Pre_finite_inputs
open Idealize.ShloMosaic Idealize.ShloMosaic.ValueIdx

variable [Cert.Pre_finite_inputs.Facts]

/-- A rank-0 shape has one index. -/
instance : Subsingleton S_.Idx := ⟨fun a b => funext fun d => d.elim0⟩

/-- The pattern the tests compare against denotes plus infinity. -/
theorem ofBits_inf : Ideal.ofBits .f32 0x7F800000#32 = (⊤ : EReal) := by
  simp [Ideal.ofBits, Ideal.ieee]

/-- An extended real whose absolute value is below plus infinity is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ v : ℝ, x = (v : EReal) := by
  rw [Ideal.hostAbsf_def, Ideal.absf_def, Ideal.cmpf_def, Ideal.ofBits_def, ofBits_inf] at h
  induction x using EReal.rec with
  | bot => simp [Ideal.cmp] at h
  | top => simp [Ideal.cmp] at h
  | coe r => exact ⟨r, rfl⟩

/-- The precondition at the ideal values says that every entry of the three inputs is a real number. -/
theorem entries_real (x : FVec Ideal S8192x2048 .f32) (W : FVec Ideal S2048x2048 .f32) (b : FVec Ideal S2048 .f32)
    (h : fn (F := Ideal) x W b = fun _ => 1#1) :
    (∀ i, ∃ v : ℝ, x i = (v : EReal)) ∧ (∀ i, ∃ v : ℝ, W i = (v : EReal)) ∧ (∀ i, ∃ v : ℝ, b i = (v : EReal)) := by
  have h0 := congrFun h ix0
  dsimp only [fn] at h0
  obtain ⟨hxW, hb⟩ := IntOp.andi_eq_one.1 h0
  obtain ⟨hx, hW⟩ := IntOp.andi_eq_one.1 hxW
  refine ⟨fun i => ?_, fun i => ?_, fun i => ?_⟩
  · exact real_of_abs_lt_inf (x i) (Host.reduce_andi_all _ _ _ _ _ hx i)
  · exact real_of_abs_lt_inf (W i) (Host.reduce_andi_all _ _ _ _ _ hW i)
  · exact real_of_abs_lt_inf (b i) (Host.reduce_andi_all _ _ _ _ _ hb i)

end Cert.Pre_finite_inputs.Decode

end
-- ==== Proof.lean ====
/- The proof of `Cert.Claim` for a scaled affine map summed over its outputs.

   For `x` (8192 by 2048), a weight `W` (2048 outputs by 2048 inputs), a bias `b` (2048) and one scale `s`, the
   reference computes, row by row, the sum over the outputs `o` of ((∑ k, x r k * W o k) + b o) * s.  The kernel sums
   the weight down its columns and the bias over its entries on the host, streams `x` in 16 blocks of 512 rows through a
   body that takes one inner product per row with the column sums, adds the summed bias and scales, and recasts the
   8192 by 1 column it wrote as a vector: row `r` is ((∑ k, x r k * ∑ o, W o k) + ∑ o, b o) * s.

   On the extended reals the two forms agree when every entry is finite (the scale leaves the sum, the sum of the affine
   images splits, the double sum is exchanged), and the precondition says exactly that every entry is finite; at an
   infinite entry distributivity fails, so the precondition is used.  The modules:
     Proof/RowSumLaw.lean       the two forms and the law between them, free of any program;
     Proof/LibColumnCasts.lean  a vector and the column that holds it, read at an index; a lane sum as a plain sum;
     Proof/ReferenceRows.lean   the reference's result is the first form, row by row;
     Proof/BlockRows.lean       what the kernel body stores, row by row;
     Proof/HostSums.lean        what the region finds in the column-sum row and the summed bias;
     Proof/KernelResult.lean    the kernel's result vector is the second form: blocks, cover, the host's recast, the run;
     Proof/FiniteInputs.lean    the precondition decoded: every entry is a real number.
   The three frames are the generated ones (the reference's is its generated run with the result dropped); the
   idealization rewrote nothing, so there is nothing to preserve. -/
import proofs.«123103_j82978768158972_2_alg».proof.Defs
import proofs.«123103_j82978768158972_2_alg».proof.Proof.Gen.Kernel
import proofs.«123103_j82978768158972_2_alg».proof.Proof.Gen.Kernel.Skeleton
import proofs.«123103_j82978768158972_2_alg».proof.Proof.Gen.Kernel.Launch
import proofs.«123103_j82978768158972_2_alg».proof.Proof.Gen.Kernel.Points
import proofs.«123103_j82978768158972_2_alg».proof.Proof.Gen.Kernel.Frame
import proofs.«123103_j82978768158972_2_alg».proof.Proof.Gen.KernelIdeal
import proofs.«123103_j82978768158972_2_alg».proof.Proof.Gen.KernelIdeal.Skeleton
import proofs.«123103_j82978768158972_2_alg».proof.Proof.Gen.KernelIdeal.Launch
import proofs.«123103_j82978768158972_2_alg».proof.Proof.Gen.KernelIdeal.Points
import proofs.«123103_j82978768158972_2_alg».proof.Proof.Gen.KernelIdeal.Frame
import proofs.«123103_j82978768158972_2_alg».proof.Proof.Gen.ReferenceIdeal
import proofs.«123103_j82978768158972_2_alg».proof.Proof.Gen.Pre_finite_inputs
import proofs.«123103_j82978768158972_2_alg».proof.Proof.Gen.ReferenceIdeal.Run
import proofs.«123103_j82978768158972_2_alg».proof.Proof.Gen.ReferenceIdeal.Read
import proofs.«123103_j82978768158972_2_alg».proof.Proof.KernelResult
import proofs.«123103_j82978768158972_2_alg».proof.Proof.ReferenceRows
import proofs.«123103_j82978768158972_2_alg».proof.Proof.FiniteInputs
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on finite arguments both programs end with the same vector: the kernel's rows are the
    column-sum form, the reference's the affine-image form, and for finite entries the two are one number. -/
theorem algebraic : Cert.algebraic_KernelIdeal_ReferenceIdeal := by
  intro m ρ m' ρ' hpre hagree
  refine ⟨fun c => Cert.KernelIdeal.Result.vector m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Rows.result_rows, (hagree c).1, (hagree c).2.1,
    (hagree c).2.2]
  obtain ⟨hx, hW, hb⟩ := Cert.Pre_finite_inputs.Decode.entries_real _ _ _ (hpre c)
  funext i
  exact Cert.RowSum.viaAffineImage_eq_viaColumnSums _ _ _ hx hW hb (i 0)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
